-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : IVec S600000 32) (main_arg2 : IVec S600000 32) (main_arg3 : FVec F S600000 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S50000x128 : Shape := ⟨2, ![50000, 128]⟩
abbrev S600000 : Shape := ⟨1, ![600000]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 22
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S600000x1, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_cst : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_call0_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩
abbrev S50000 : Shape := ⟨1, ![50000]⟩
abbrev S50000x1 : Shape := ⟨2, ![50000, 1]⟩

abbrev nBuf : Space → Nat
  | .hbm => 35
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S600000x1, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000, .f32⟩
  | .hbm, ⟨28, _⟩ => ⟨S50000x1, .f32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x128, .f32⟩
  | .hbm, ⟨34, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  Row-normalised rectified products on the extended reals.

  Given a row `a` of 128 extended reals and a 128 × 128 array `w`, the row's products with the columns of `w` are
  rectified (the maximum with 0), and each rectified entry is divided by the row's Euclidean norm — the square root of
  the sum of the squares of the 128 rectified entries — after that norm has been raised to a small positive floor.
  `normalizedRelu x w` does this to every row of an [M, 128] array `x`: its entry (r, c) depends only on row r of `x`.
-/
import Idealize.ShloMosaic.PureOps.Ideal.Laws
import Idealize.ShloMosaic.Lib.ValueIdx

noncomputable section

namespace Cert.NormalizedRelu

open Idealize.ShloMosaic Idealize.ShloMosaic.ValueIdx

/-- The rectified product of the row `a` with column `c` of `w`: max (∑ₖ aₖ · w(k, c), 0). -/
def reluDot (a : Fin 128 → EReal) (w : (⟨2, ![128, 128]⟩ : Shape).Idx → EReal) (c : Fin 128) : EReal :=
  max (∑ k : Fin 128, a k * w (ix2 k c)) 0

/-- The squared Euclidean norm of the row of rectified products. -/
def sumSquares (a : Fin 128 → EReal) (w : (⟨2, ![128, 128]⟩ : Shape).Idx → EReal) : EReal :=
  ∑ c : Fin 128, reluDot a w c * reluDot a w c

/-- The floor under the norm: the single-precision number nearest to 10⁻¹², kept as its word. -/
def normFloor : EReal := Ideal.ofBits .f32 0x2B8CBCCC#32

/-- Entry `c` of the normalised row: the rectified product over the floored norm. -/
def rowOut (a : Fin 128 → EReal) (w : (⟨2, ![128, 128]⟩ : Shape).Idx → EReal) (c : Fin 128) : EReal :=
  Ideal.div (reluDot a w c) (max (Ideal.sqrt (sumSquares a w)) normFloor)

/-- Every row of an [M, 128] array normalised: entry (r, c) is `rowOut` of row r at c. -/
def normalizedRelu {M : Nat} (x : (⟨2, ![M, 128]⟩ : Shape).Idx → EReal) (w : (⟨2, ![128, 128]⟩ : Shape).Idx → EReal) :
    (⟨2, ![M, 128]⟩ : Shape).Idx → EReal :=
  fun i => rowOut (fun k => x (ix2 (i 0) k)) w (i 1)

theorem normalizedRelu_apply {M : Nat} (x : (⟨2, ![M, 128]⟩ : Shape).Idx → EReal) (w : (⟨2, ![128, 128]⟩ : Shape).Idx → EReal)
    (r : Fin M) (c : Fin 128) : normalizedRelu x w (ix2 r c) = rowOut (fun k => x (ix2 r k)) w c := rfl

end Cert.NormalizedRelu

end
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.Payload.lean ====
/-
  What the kernel body stores, read entry by entry.

  The body takes a block of 5000 rows of the aggregated features and the whole 128 × 128 weight array.  It multiplies
  them (rows against columns, into a zero accumulator; the change of float format on the way in is the identity on
  the extended reals), rectifies, sums each row's squares, takes the square root, raises it to the floor, and divides
  the rectified block by that column repeated along the row.  So entry (p, q) of what it stores is `rowOut` of row p
  of the block at q: it depends on row p of the block only.
-/
import proofs.«178186_j39771397161525_2_alg».proof.Proof.Gen.KernelIdeal.Skeleton
import proofs.«178186_j39771397161525_2_alg».proof.Proof.Spec
import proofs.«178186_j39771397161525_2_alg».proof.Proof.LibRowColumn
import proofs.«178186_j39771397161525_2_alg».proof.Proof.LibColumnLayout
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx Cert.NormalizedRelu

/-! ## The block product's dimension numbers: rows of the left operand against columns of the right -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_contracted (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_contracted (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_column (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The rectified block product -/

/-- The block's rows times the weights, rectified: the first half of the body. -/
def reluBlock (x0 : FVec Ideal S5000x128 .f32) (x1 : FVec Ideal S128x128 .f32)
    (hc : S5000x128.ShapeCasts S5000x128) (hb : FTy.bits .bf16 < FTy.bits .f32) : FVec Ideal S5000x128 .f32 :=
  maximumf
    (matmul dot_S5000x128_S128x128_S5000x128_1_0_0_1_n_n none (truncf .bf16 (shapeCast S5000x128 x0 hc) hb) (truncf .bf16 x1 hb)
      (constant S5000x128 .f32 0x00000000#32))
    (broadcast S5000x128 (Scalar.ofBits .f32 0x00000000#32))

/-- Its entry (p, q) is the rectified product of row p of the block with column q of the weights. -/
theorem reluBlock_apply (x0 : FVec Ideal S5000x128 .f32) (x1 : FVec Ideal S128x128 .f32)
    (hc : S5000x128.ShapeCasts S5000x128) (hb : FTy.bits .bf16 < FTy.bits .f32) (p : Fin 5000) (q : Fin 128) :
    reluBlock x0 x1 hc hb (ix2 p q) = reluDot (fun k => x0 (ix2 p k)) x1 q := by
  unfold reluBlock reluDot
  rw [shapeCast_self]
  show max (FloatOps.matmul dot_S5000x128_S128x128_S5000x128_1_0_0_1_n_n none (truncf .bf16 x0 hb) (truncf .bf16 x1 hb)
      (constant (F := Ideal) S5000x128 .f32 0x00000000#32) (ix2 p q)) (Ideal.ofBits .f32 0x00000000#32) = _
  rw [Ideal.ofBits_zero_f32]
  refine congrArg (max · 0) ?_
  exact Cert.Lib.RowColumn.matmul_zero_entry (M := 5000) (K := 128) (N := 128)
    dot_S5000x128_S128x128_S5000x128_1_0_0_1_n_n rfl rfl lhs_row lhs_contracted rhs_contracted rhs_column none
    (truncf .bf16 x0 hb) (truncf .bf16 x1 hb) (ix2 p q)

/-! ## The row norm -/

/-- The sum along a row of the squares of a block, at row p. -/
theorem rowSquares_apply (R : FVec Ideal S5000x128 .f32) (h : S5000x128.Reduces [1] S5000) (hφ : FKind.Formats .f32)
    (hacc : (0x00000000#32 : BitVec 32) = FKind.add.neutral .f32 hφ) (p : Fin 5000) :
    multiReduction .add [1] S5000 (mulf R R) 0x00000000#32 h hφ hacc (ix1 p) = ∑ k : Fin 128, R (ix2 p k) * R (ix2 p k) := by
  refine (Ideal.multiReduction_add_single (mulf R R) 0x00000000#32 h hφ hacc (ix1 p)).trans ?_
  refine Finset.sum_congr rfl fun k _ => ?_
  have e : h.lift (ix1 p) k = ix2 p k := funext fun a => Fin.ext (by match a with | ⟨0, _⟩ => rfl | ⟨1, _⟩ => rfl)
  rw [e]
  rfl

/-! ## The stored value -/

/-- The body's stored value is the rectified block divided by its floored row norms repeated along the rows. -/
theorem payload_eq (x0 : Vec Ideal S5000x128 .f32) (x1 : Vec Ideal S128x128 .f32) :
    k0_pay1 (F := Ideal) x0 x1
      = divf (reluBlock x0 x1 shapeCasts_S5000x128_S5000x128 bitsLt_bf16_f32)
          (broadcastTo S5000x128
            (maximumf
              (sqrt (shapeCast S5000x1
                (multiReduction .add [1] S5000
                  (mulf (reluBlock x0 x1 shapeCasts_S5000x128_S5000x128 bitsLt_bf16_f32)
                    (reluBlock x0 x1 shapeCasts_S5000x128_S5000x128 bitsLt_bf16_f32))
                  0x00000000#32 reduces_S5000x128_S5000 (.inl rfl) rfl)
                shapeCasts_S5000_S5000x1))
              (broadcast S5000x1 (Scalar.ofBits .f32 0x2B8CBCCC#32)))
            broadcasts_S5000x1_S5000x128) := rfl

/-- Entry (p, q) of the stored value is the normalised row p of the block at q. -/
theorem payload_apply (x0 : Vec Ideal S5000x128 .f32) (x1 : Vec Ideal S128x128 .f32) (p : Fin 5000) (q : Fin 128) :
    k0_pay1 (F := Ideal) x0 x1 (ix2 p q) = rowOut (fun k => x0 (ix2 p k)) x1 q := by
  rw [payload_eq]
  unfold rowOut sumSquares normFloor
  show Ideal.div (reluBlock x0 x1 _ _ (ix2 p q)) (broadcastTo S5000x128 _ _ (ix2 p q)) = _
  rw [reluBlock_apply, Cert.Lib.ColumnLayout.broadcastTo_a1_ab_apply _ _ p q (0 : Fin 1)]
  show Ideal.div _ (max (Ideal.sqrt (shapeCast S5000x1 _ _ (ix2 p (0 : Fin 1)))) (Ideal.ofBits .f32 0x2B8CBCCC#32)) = _
  rw [Cert.Lib.ColumnLayout.shapeCast_a_a1_apply _ _ p (0 : Fin 1)]
  refine congrArg (fun z => Ideal.div _ (max (Ideal.sqrt z) _)) ?_
  refine (rowSquares_apply _ _ _ _ p).trans ?_
  simp only [reluBlock_apply]

/-- The stored value at a block entry, against the normalised whole array at an array entry: equal as soon as the
    block's row is the array's row and the two column coordinates agree. -/
theorem payload_eq_normalized (A : S50000x128.Idx → EReal) (W W' : S128x128.Idx → EReal) (X : S5000x128.Idx → EReal)
    (j : S5000x128.Idx) (i : S50000x128.Idx) (hW : W' = W)
    (hX : ∀ k : Fin 128, X (ix2 (j 0) k) = A (ix2 (i 0) k)) (hc : (i 1).val = (j 1).val) :
    k0_pay1 (F := Ideal) X W' j = normalizedRelu (M := 50000) A W i := by
  subst hW
  obtain ⟨p, q, rfl⟩ : ∃ (p : Fin 5000) (q : Fin 128), j = ix2 p q := ⟨j 0, j 1, eq_ix2 j⟩
  rw [payload_apply]
  unfold normalizedRelu
  have hq : i 1 = q := Fin.ext hc
  rw [hq]
  exact congrArg (fun a => rowOut a W' q) (funext hX)

end Cert.KernelIdeal.BlockValue

end
-- ==== Proof.Blocks.lean ====
/-
  From the blocks to the whole array.

  The grid has ten points.  Point t reads rows 5000·t … 5000·t + 4999 of the aggregated features (all 128 columns) and
  the whole weight array, and writes back rows 5000·t … 5000·t + 4999 of the result.  Since an entry of the stored
  block depends only on its own row of the input block, what point t writes back is exactly block t of
  `normalizedRelu` of the whole aggregate; the ten blocks tile the 50000 rows, so after the run the result array is
  `normalizedRelu` of the aggregate and the weights as the region found them.
-/
import proofs.«178186_j39771397161525_2_alg».proof.Proof.Gen.KernelIdeal.Value
import proofs.«178186_j39771397161525_2_alg».proof.Proof.Payload

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.NormalizedRelu
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices, decided over the ten points: the input rows move with the output rows, block t is the t-th
    block of rows, the column block is always 0, and the weights' one block is the whole array. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The aggregate and the weights as the region finds them. -/
abbrev agg (c : Dev nD) : S50000x128.Idx → EReal := V m c main_call0_v12
abbrev weights (c : Dev nD) : S128x128.Idx → EReal := V m c main_arg4

/-- What point t writes back is block t of the normalised whole array. -/
theorem flushed_eq (c : Dev nD) (t : Fin cfg0.N) :
    (dats m 0 c).flushed 2 t
      = ((cfg0.win 2).blk t).view.read (Elt Ideal) (normalizedRelu (M := 50000) (agg m c) (weights m c)) := by
  show (cfg0.win 2).cut (grid0.coords t) ((dats m 0 c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  funext j
  rw [View.read_apply]
  rw [cast_eq]
  show k0_pay1 (F := Ideal) (iblk m c 0 t) (iblk m c 1 t) ((win0 2).xinj (grid0.coords t) j) = _
  refine payload_eq_normalized (agg m c) (weights m c) (iblk m c 1 t) (iblk m c 0 t) ((win0 2).xinj (grid0.coords t) j) (((View.whole main_v0).slice ((win0 2).rect t)).emb j) ?_ ?_ ?_
  · funext y
    unfold iblk
    rw [View.read_apply, cast_eq]
    refine congrArg (V m c main_arg4) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · intro k
    unfold iblk
    rw [View.read_apply, cast_eq]
    refine congrArg (V m c main_call0_v12) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show win0_2.index t (1 : Fin 2) * 128 + 1 * (j 1).val = (j 1).val
    omega

/-- An index of the array is in point t's block iff each coordinate is in the block's range on its axis. -/
theorem mem_block (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every row of the array lies in some point's block: row r in the block of point r / 5000. -/
theorem covered (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  obtain ⟨e0, e1, e2, e3, e4, e5⟩ := block_indices t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the run is the normalised whole array. -/
theorem final (c : Dev nD) :
    (dats m 0 c).arrAt 2 cfg0.N = normalizedRelu (M := 50000) (agg m c) (weights m c) :=
  (dats m 0 c).arrAt_eq_of_cover 2 (normalizedRelu (M := 50000) (agg m c) (weights m c)) (fun t _ => flushed_eq m c t) covered

/-- The run, read: the result array at the normalised aggregate, the arguments unchanged. -/
theorem run : θ_run defs (onTc (τ := τ) (main (F := Ideal))) ⟨m, fun _ => 0, ρ⟩ fun r => ∀ c : Dev nD,
      r.2.mem ((c : Thread nD τ).loc main_v0) = normalizedRelu (M := 50000) (agg m c) (weights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference's result, read entry by entry.

  After the aggregation (a gather, a scaling and a scatter-add, kept here as one unopened array `agg`), the reference
  multiplies `agg` by the weights, rectifies, sums each row's squares from 0, takes the square root, raises it to the
  floor, repeats that column along the rows and divides.  Entry (r, c) of its result is `rowOut` of row r of `agg`
  at c; the whole result is `normalizedRelu agg W`.
-/
import proofs.«178186_j39771397161525_2_alg».proof.Proof.Gen.ReferenceIdeal.Read
import proofs.«178186_j39771397161525_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Cert.NormalizedRelu

variable (x0 : (⟨S50000x128, .f32⟩ : BufTy).Contents (Elt Ideal)) (x1 x2 : (⟨S600000, .i32⟩ : BufTy).Contents (Elt Ideal))
  (x3 : (⟨S600000, .f32⟩ : BufTy).Contents (Elt Ideal)) (x4 : (⟨S128x128, .f32⟩ : BufTy).Contents (Elt Ideal))

/-- The operand entries of the product at (r, c): (r, k) on the left, (k, c) on the right. -/
theorem left_entry (r : Fin 50000) (c k : Fin 128) : lidx_main_v13 (ix2 r c) k = ix2 r k :=
  funext fun a => Fin.ext (by match a with | ⟨0, _⟩ => rfl | ⟨1, _⟩ => rfl)

theorem right_entry (r : Fin 50000) (c k : Fin 128) : ridx_main_v13 (ix2 r c) k = ix2 k c :=
  funext fun a => Fin.ext (by match a with | ⟨0, _⟩ => rfl | ⟨1, _⟩ => rfl)

/-- The rectified product at (r, c) is the rectified product of row r of the aggregate with column c of the weights. -/
theorem relu_apply (r : Fin 50000) (c : Fin 128) :
    val_main_v14 (F := Ideal) x0 x1 x2 x3 x4 (ix2 r c)
      = reluDot (fun k => val_main_v12 (F := Ideal) x0 x1 x2 x3 (ix2 r k)) x4 c := by
  rw [val_main_v14_apply, val_main_v13_apply, val_main_call0_v0_apply, val_main_call0_cst_apply]
  simp only [left_entry, right_entry]
  unfold reluDot
  show max _ (Ideal.ofBits .f32 0x00000000#32) = _
  rw [Ideal.ofBits_zero_f32]

/-- The entry of the squares' row sum that the entry (r, c) of the result reads is row r's, term k at (r, k). -/
theorem square_entry (r : Fin 50000) (c k : Fin 128) :
    idx_main_v16 (idx_main_v17 (idx_main_v21 (ix2 r c))) k = ix2 r k :=
  funext fun a => Fin.ext (by match a with | ⟨0, _⟩ => rfl | ⟨1, _⟩ => rfl)

/-- Entry (r, c) of the reference's result is the normalised row r of the aggregate at c. -/
theorem result_apply (r : Fin 50000) (c : Fin 128) :
    val_main_v22 (F := Ideal) x0 x1 x2 x3 x4 (ix2 r c)
      = rowOut (fun k => val_main_v12 (F := Ideal) x0 x1 x2 x3 (ix2 r k)) x4 c := by
  rw [val_main_v22_apply, val_main_v21_apply, val_main_v20_apply, val_main_v18_apply, val_main_v17_apply,
    val_main_v16_apply, val_main_v19_apply, val_main_cst_2_apply, val_main_cst_1_apply]
  simp only [val_main_v15_apply, square_entry, relu_apply]
  unfold rowOut sumSquares normFloor
  simp only [Ideal.hostDivf_def, Ideal.maximumf_def, Ideal.hostUnary_sqrt_def, Ideal.ofBits_def, Ideal.mulf_def,
    Ideal.ofBits_zero_f32, zero_add]

/-- The reference's whole result is the row-normalised rectified product of the aggregate with the weights. -/
theorem result_eq :
    val_main_v22 (F := Ideal) x0 x1 x2 x3 x4 = normalizedRelu (M := 50000) (val_main_v12 (F := Ideal) x0 x1 x2 x3) x4 := by
  funext i
  obtain ⟨r, c, rfl⟩ : ∃ (r : Fin 50000) (c : Fin 128), i = ix2 r c := ⟨i 0, i 1, eq_ix2 i⟩
  exact result_apply x0 x1 x2 x3 x4 r c

end Cert.ReferenceIdeal.RefValue

end
-- ==== Proof.Aggregate.lean ====
/-
  The aggregated features, on both sides one array.

  Before the product, both programs compute the same sparse aggregation of the features: the column indices wrapped
  into range, the gathered feature rows scaled by the edge values, and the scaled rows scatter-added into a zero array
  at the row indices.  The kernel's program does this on the host before its region; the array its first window
  stages is therefore the very term the reference multiplies by the weights.  Nothing of the aggregation is opened.
-/
import proofs.«178186_j39771397161525_2_alg».proof.Proof.Gen.KernelIdeal.Frame
import proofs.«178186_j39771397161525_2_alg».proof.Proof.Gen.ReferenceIdeal.Read
import Idealize.ShloMosaic.Lib.StableHlo.Run

noncomputable section

namespace Cert.KernelIdeal.Aggregate

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The array the region's first window stages is the reference's aggregation term of the launch arguments. -/
theorem aggregate_eq (c : Dev nD) :
    (V m c main_call0_v12 : S50000x128.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results
  rfl

end Cert.KernelIdeal.Aggregate

end
-- ==== Proof.lean ====
/-
  A dense layer over sparsely aggregated features, rectified and row-normalised: the kernel against its reference.

  Both programs first aggregate the features over the edges (gather the rows named by the column indices, scale by the
  edge values, scatter-add at the row indices): the same host operations on both sides, kept as one unopened array
  `agg` of shape [50000, 128].  The reference then forms relu(agg · W), and divides each row by the maximum of its
  Euclidean norm and a floor of about 10⁻¹².  The kernel does the same on ten blocks of 5000 rows: the product through
  the matrix unit into a zero accumulator, the inputs first narrowed to half precision, which on the extended reals
  is the identity.

  On the extended reals both results are `normalizedRelu agg W` (Proof/Spec.lean): entry (r, c) is
  max(∑ₖ agg(r,k)·W(k,c), 0) divided by max(√(∑_c' max(∑ₖ agg(r,k)·W(k,c'), 0)²), floor).  No law beyond reading
  each operation at an index is needed — the two sides sum the same terms in the same index order, and the zero the
  reference's row sum starts from is the additive unit —, so the finiteness of the inputs is never used.

  The kernel side: an entry of the stored block depends only on its own row of the input block (Proof/Payload.lean),
  so point t writes back block t of `normalizedRelu` of the whole aggregate, and the ten blocks tile the rows
  (Proof/Blocks.lean).  The reference side: its run, read one operation at a time down to the aggregate
  (Proof/RefValue.lean).  The array the kernel's first window stages is the reference's aggregation term
  (Proof/Aggregate.lean).  The three frames are the generated runs; the idealization rewrote nothing.
-/
import proofs.«178186_j39771397161525_2_alg».proof.Defs
import proofs.«178186_j39771397161525_2_alg».proof.Proof.Gen.Kernel
import proofs.«178186_j39771397161525_2_alg».proof.Proof.Gen.Kernel.Skeleton
import proofs.«178186_j39771397161525_2_alg».proof.Proof.Gen.Kernel.Launch
import proofs.«178186_j39771397161525_2_alg».proof.Proof.Gen.Kernel.Points
import proofs.«178186_j39771397161525_2_alg».proof.Proof.Gen.Kernel.Frame
import proofs.«178186_j39771397161525_2_alg».proof.Proof.Gen.KernelIdeal
import proofs.«178186_j39771397161525_2_alg».proof.Proof.Gen.KernelIdeal.Skeleton
import proofs.«178186_j39771397161525_2_alg».proof.Proof.Gen.KernelIdeal.Launch
import proofs.«178186_j39771397161525_2_alg».proof.Proof.Gen.KernelIdeal.Points
import proofs.«178186_j39771397161525_2_alg».proof.Proof.Gen.KernelIdeal.Frame
import proofs.«178186_j39771397161525_2_alg».proof.Proof.Gen.ReferenceIdeal
import proofs.«178186_j39771397161525_2_alg».proof.Proof.Gen.Pre_finite_inputs
import proofs.«178186_j39771397161525_2_alg».proof.Proof.Gen.KernelIdeal.Value
import proofs.«178186_j39771397161525_2_alg».proof.Proof.Gen.ReferenceIdeal.Run
import proofs.«178186_j39771397161525_2_alg».proof.Proof.Gen.ReferenceIdeal.Read
import proofs.«178186_j39771397161525_2_alg».proof.Proof.Blocks
import proofs.«178186_j39771397161525_2_alg».proof.Proof.RefValue
import proofs.«178186_j39771397161525_2_alg».proof.Proof.Aggregate
import Idealize.ShloMosaic.Adequacy
import Idealize.ShloMosaic.Init

noncomputable section

namespace Cert.Proof

open Idealize.ShloMosaic Idealize.ShloMosaic.TcCoe Idealize.SL.Sem Cert.NormalizedRelu

/-- The kernel's program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `normalizedRelu` of the aggregate and the
    weights: the kernel's result array block by block, the reference's operation by operation. -/
theorem algebraic : Cert.algebraic_KernelIdeal_ReferenceIdeal := by
  intro m ρ m' ρ' _ hagree
  refine ⟨fun c => normalizedRelu (M := 50000) (Cert.KernelIdeal.ArrayValue.agg m c) (Cert.KernelIdeal.ArrayValue.weights m c),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v22_eq (F := Ideal) _ _ _ _ _).trans
    ((Cert.ReferenceIdeal.RefValue.result_eq _ _ _ _ _).trans ?_)
  show normalizedRelu (M := 50000) _ _ = normalizedRelu (M := 50000) _ _
  rw [← Cert.KernelIdeal.Aggregate.aggregate_eq m c, ← Cert.KernelIdeal.Gen.V_main_arg4 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
